-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x256x256 : Shape := ⟨4, ![32, 64, 256, 256]⟩
abbrev S_ : Shape := ⟨0, ![]⟩

class Facts : Prop where
  bcast_S_S32x64x256x256 : S_.BroadcastsInDim S32x64x256x256 (![] : Fin 0 → Fin S32x64x256x256.rank)
  reducesTo_S32x64x256x256_S_d0_1_2_3 : S32x64x256x256.ReducesTo [0, 1, 2, 3] S_
  h_S_ : 0 < S_.numel

variable [Facts]

def fn {F : FTy → Type} [FloatOps F] (main_arg0 : FVec F S32x64x256x256 .f32) : IVec S_ 1 :=
  let main_v0 : FVec F S32x64x256x256 .f32 := Host.absf main_arg0
  let main_cst : FVec F S_ .f32 := constant S_ .f32 0x7F800000#32
  let main_v1 : FVec F S32x64x256x256 .f32 := broadcastInDim S32x64x256x256 ![] bcast_S_S32x64x256x256 main_cst
  let main_v2 : IVec S32x64x256x256 1 := cmpf .olt main_v0 main_v1
  let main_c : IVec S_ 1 := constantI S_ 1 1#1
  let main_v3 : IVec S_ 1 := (fun x v => Host.reduce IntOp.andi x v reducesTo_S32x64x256x256_S_d0_1_2_3 h_S_) main_v2 main_c
  main_v3
-- ==== Kernel.lean ====
abbrev S32x64x256x256 : Shape := ⟨4, ![32, 64, 256, 256]⟩
abbrev S2048x65536 : Shape := ⟨2, ![2048, 65536]⟩
abbrev S32x64x1 : Shape := ⟨3, ![32, 64, 1]⟩
abbrev S64x65536 : Shape := ⟨2, ![64, 65536]⟩
abbrev S1x64x1 : Shape := ⟨3, ![1, 64, 1]⟩
abbrev S64 : Shape := ⟨1, ![64]⟩
abbrev S64x1 : Shape := ⟨2, ![64, 1]⟩
abbrev S64x32768 : Shape := ⟨2, ![64, 32768]⟩

abbrev nBuf : Space → Nat
  | .hbm => 6
  | .vmem => 12
  | .smem => 0
  | _ => 0

abbrev bufTy : (tb : Table) → Fin (tcTables nBuf tb) → BufTy
  | .hbm, ⟨0, _⟩ => ⟨S32x64x256x256, .f32⟩
  | .hbm, ⟨1, _⟩ => ⟨S2048x65536, .f32⟩
  | .hbm, ⟨2, _⟩ => ⟨S32x64x1, .f32⟩
  | .hbm, ⟨3, _⟩ => ⟨S32x64x1, .f32⟩
  | .hbm, ⟨4, _⟩ => ⟨S2048x65536, .f32⟩
  | .hbm, ⟨5, _⟩ => ⟨S32x64x256x256, .f32⟩
  | .local _ .vmem, ⟨0, _⟩ => ⟨S64x65536, .f32⟩
  | .local _ .vmem, ⟨1, _⟩ => ⟨S64x65536, .f32⟩
  | .local _ .vmem, ⟨2, _⟩ => ⟨S1x64x1, .f32⟩
  | .local _ .vmem, ⟨3, _⟩ => ⟨S1x64x1, .f32⟩
  | .local _ .vmem, ⟨4, _⟩ => ⟨S1x64x1, .f32⟩
  | .local _ .vmem, ⟨5, _⟩ => ⟨S1x64x1, .f32⟩
  | .local _ .vmem, ⟨6, _⟩ => ⟨S32x64x1, .f32⟩
  | .local _ .vmem, ⟨7, _⟩ => ⟨S32x64x1, .f32⟩
  | .local _ .vmem, ⟨8, _⟩ => ⟨S64x32768, .f32⟩
  | .local _ .vmem, ⟨9, _⟩ => ⟨S64x32768, .f32⟩
  | .local _ .vmem, ⟨10, _⟩ => ⟨S64x32768, .f32⟩
  | .local _ .vmem, ⟨11, _⟩ => ⟨S64x32768, .f32⟩
  | _, _ => ⟨S32x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![32, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S32x64x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S32x64x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S64x32768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S64x32768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S32x64x256x256_S2048x65536 : S32x64x256x256.ShapeCasts S2048x65536
  inb_S64x65536_S64x65536_0_0 : ∀ a, (![0, 0] : Fin 2 → Nat) a + S64x65536.size a ≤ S64x65536.size a
  h_S64x65536 : 0 < S64x65536.numel
  shapeCasts_S64x65536_S64x65536 : S64x65536.ShapeCasts S64x65536
  reduces_S64x65536_S64 : S64x65536.Reduces [1] S64
  shapeCasts_S64_S64x1 : S64.ShapeCasts S64x1
  shapeCasts_S64x1_S1x64x1 : S64x1.ShapeCasts S1x64x1
  inb_S1x64x1_S1x64x1_0_0_0 : ∀ a, (![0, 0, 0] : Fin 3 → Nat) a + S1x64x1.size a ≤ S1x64x1.size a
  h_S1x64x1 : 0 < S1x64x1.numel
  inb_S32x64x1_S32x64x1_0_0_0 : ∀ a, (![0, 0, 0] : Fin 3 → Nat) a + S32x64x1.size a ≤ S32x64x1.size a
  h_S32x64x1 : 0 < S32x64x1.numel
  shapeCasts_S32x64x1_S32x64x1 : S32x64x1.ShapeCasts S32x64x1
  reduces_S32x64x1_S64x1 : S32x64x1.Reduces [0] S64x1
  inb_S64x32768_S64x32768_0_0 : ∀ a, (![0, 0] : Fin 2 → Nat) a + S64x32768.size a ≤ S64x32768.size a
  h_S64x32768 : 0 < S64x32768.numel
  shapeCasts_S64x32768_S64x32768 : S64x32768.ShapeCasts S64x32768
  broadcasts_S64x1_S64x32768 : S64x1.Broadcasts S64x32768
  shapeCasts_S2048x65536_S32x64x256x256 : S2048x65536.ShapeCasts S32x64x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x65536.size a ≤ S2048x65536.size a
  hwx0_0 : ∀ i : grid0.Coords, EltTy.bits .f32 = 32 ∨ (Rect.block (s := S2048x65536) S64x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1.size a ≤ S32x64x1.size a
  hwx0_1 : ∀ i : grid0.Coords, EltTy.bits .f32 = 32 ∨ (Rect.block (s := S32x64x1) S1x64x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x1.size a ≤ S32x64x1.size a
  hwx0_2 : ∀ i : grid0.Coords, EltTy.bits .f32 = 32 ∨ (Rect.block (s := S32x64x1) S1x64x1.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S32x64x1.size a ≤ S32x64x1.size a
  hwx1_0 : ∀ i : grid1.Coords, EltTy.bits .f32 = 32 ∨ (Rect.block (s := S32x64x1) S32x64x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x64x1.size a ≤ S32x64x1.size a
  hwx1_1 : ∀ i : grid1.Coords, EltTy.bits .f32 = 32 ∨ (Rect.block (s := S32x64x1) S32x64x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x32768.size a ≤ S2048x65536.size a
  hwx1_2 : ∀ i : grid1.Coords, EltTy.bits .f32 = 32 ∨ (Rect.block (s := S2048x65536) S64x32768.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x32768.size a ≤ S2048x65536.size a
  hwx1_3 : ∀ i : grid1.Coords, EltTy.bits .f32 = 32 ∨ (Rect.block (s := S2048x65536) S64x32768.size (cc1_transform_3 i) (hinb1_3 i)).WholeWords (EltTy.packing .f32)

variable [Facts₀]

abbrev win0_0 : Pipeline.Window sig grid0 :=
  Pipeline.Window.ofSpec (Memref.whole main_v0) S64x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x64x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x64x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1_0) S32x64x1.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S32x64x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S64x32768.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S64x32768.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x64x256x256 : Shape := ⟨4, ![32, 64, 256, 256]⟩
abbrev S32x256x256x64 : Shape := ⟨4, ![32, 256, 256, 64]⟩
abbrev S2097152x64 : Shape := ⟨2, ![2097152, 64]⟩
abbrev S_ : Shape := ⟨0, ![]⟩
abbrev S64 : Shape := ⟨1, ![64]⟩
abbrev S1x64 : Shape := ⟨2, ![1, 64]⟩
abbrev S1x64x1x1 : Shape := ⟨4, ![1, 64, 1, 1]⟩

abbrev nBuf : Space → Nat
  | .hbm => 30
  | .vmem => 0
  | .smem => 0
  | _ => 0

abbrev bufTy : (tb : Table) → Fin (tcTables nBuf tb) → BufTy
  | .hbm, ⟨0, _⟩ => ⟨S32x64x256x256, .f32⟩
  | .hbm, ⟨1, _⟩ => ⟨S32x256x256x64, .f32⟩
  | .hbm, ⟨2, _⟩ => ⟨S2097152x64, .f32⟩
  | .hbm, ⟨3, _⟩ => ⟨S_, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S1x64, .f32⟩
  | .hbm, ⟨9, _⟩ => ⟨S2097152x64, .f32⟩
  | .hbm, ⟨10, _⟩ => ⟨S2097152x64, .f32⟩
  | .hbm, ⟨11, _⟩ => ⟨S2097152x64, .f32⟩
  | .hbm, ⟨12, _⟩ => ⟨S_, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S1x64x1x1, .f32⟩
  | .hbm, ⟨25, _⟩ => ⟨S32x64x256x256, .f32⟩
  | .hbm, ⟨26, _⟩ => ⟨S32x64x256x256, .f32⟩
  | .hbm, ⟨27, _⟩ => ⟨S1x64x1x1, .f32⟩
  | .hbm, ⟨28, _⟩ => ⟨S32x64x256x256, .f32⟩
  | .hbm, ⟨29, _⟩ => ⟨S32x64x256x256, .f32⟩
  | _, _ => ⟨S32x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_v13 : Ref sig .tc := ⟨.hbm, 19, rfl⟩
abbrev main_cst_4 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  transposes_S32x64x256x256_S32x256x256x64_0_2_3_1 : S32x64x256x256.Transposes [0, 2, 3, 1] S32x256x256x64
  shapeCasts_S32x256x256x64_S2097152x64 : S32x256x256x64.ShapeCasts S2097152x64
  reducesTo_S2097152x64_S64_d0 : S2097152x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S1x64_S2097152x64_0_1 : S1x64.BroadcastsInDim S2097152x64 (![0, 1] : Fin 2 → Fin S2097152x64.rank)
  shapeCasts_S64_S1x64x1x1 : S64.ShapeCasts S1x64x1x1
  bcast_S1x64x1x1_S32x64x256x256_0_1_2_3 : S1x64x1x1.BroadcastsInDim S32x64x256x256 (![0, 1, 2, 3] : Fin 4 → Fin S32x64x256x256.rank)

variable [Facts₀]

class Facts : Prop extends Facts₀ where

variable [Facts]
-- ==== Proof.Moments.lean ====
/-
  Per-channel standardisation of x : [32, 64, 256, 256] over the extended reals, written the two ways the two programs
  compute it, and the law that joins them.

  One-pass form: per channel c, T = Σ x, Q = Σ x² (over the 32 · 65536 entries of the channel, batch image by batch
  image), μ = T / n, M = Q − T · μ, and the result (x − μ) · rsqrt (max (M / d) ε + ε).
  Two-pass form: T' = Σ x over the channel's n = 2097152 entries in one flat sum, μ' = T' / n, M' = Σ (x − μ')², and
  the result (x − μ') / sqrt (max (M' / d) ε + ε).
  The sums T and T' are the same entries in two arrangements, so T = T' on every extended real.  M = M' is the
  expansion Σ (x − μ)² = Σ x² − 2 μ Σ x + n μ² with n μ = T; it distributes a product over a sum, which needs every
  entry finite.  Last, a · rsqrt v = a / sqrt v for every v > 0 (v = +∞ included), and v ≥ 2 ε > 0 here.
-/
import Idealize.ShloMosaic.PureOps.Ideal
import Idealize.ShloMosaic.PureOps.Ideal.Laws
import Idealize.ShloMosaic.Lib.ValueIdx

noncomputable section

open scoped BigOperators

namespace Cert.Standardize

open Idealize.ShloMosaic Idealize.ShloMosaic.ValueIdx

/-! ## The three constants -/

/-- The pattern 0x4A000000 denotes 2^21 = 2097152 = 32 · 65536, the number of entries of one channel. -/
theorem count_eq : Ideal.ofBits .f32 0x4A000000#32 = ((2097152 : ℝ) : EReal) := by
  simp [Ideal.ofBits, Ideal.ieee, -EReal.coe_mul]; norm_num

/-- The pattern 0x322BCC77 (the float nearest 1e-8) denotes a positive real. -/
theorem eps_pos : (0 : EReal) < Ideal.ofBits .f32 0x322BCC77#32 := by
  simp [Ideal.ofBits, Ideal.ieee, -EReal.coe_mul]

/-! ## Finite sums of reals inside the extended reals -/

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sum of squared deviations from the mean, over n = |ι| reals: Σ (r − T/n)² = Σ r² − T · (T/n). -/
theorem sum_sq_dev {ι : Type*} [Fintype ι] (r : ι → ℝ) (n : ℝ) (hn : (Fintype.card ι : ℝ) = n) (hn0 : n ≠ 0) :
    ∑ k, (r k - (∑ j, r j) / n) * (r k - (∑ j, r j) / n) = ∑ k, r k * r k - (∑ j, r j) * ((∑ j, r j) / n) := by
  have h : ∀ k, (r k - (∑ j, r j) / n) * (r k - (∑ j, r j) / n)
      = r k * r k - 2 * ((∑ j, r j) / n) * r k + ((∑ j, r j) / n) * ((∑ j, r j) / n) := fun k => by ring
  simp only [h]
  rw [Finset.sum_add_distrib, Finset.sum_sub_distrib, ← Finset.mul_sum, Finset.sum_const, Finset.card_univ,
    nsmul_eq_mul, hn]
  field_simp
  ring

/-- For v > 0 (v = +∞ included) a product with rsqrt v is the quotient by sqrt v. -/
theorem mul_rsqrt_eq_div_sqrt (a v : EReal) (hv : 0 < v) : a * Ideal.rsqrt v = Ideal.div a (Ideal.sqrt v) := by
  induction v using EReal.rec with
  | bot => exact absurd hv (not_lt.mpr bot_le)
  | top =>
    rw [Ideal.rsqrt_top, Ideal.sqrt_top, Ideal.div, if_neg (by simp), EReal.inv_top]
  | coe r =>
    have hr : 0 < r := by exact_mod_cast hv
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div_coe hs, one_div]

/-- The law, over any finite index set of n entries, every entry a real: with T the sum and μ = T / n, the one-pass
    form (x − μ) · rsqrt (max ((Σ x² − T μ) / d) ε + ε) is the two-pass form (x − μ) / sqrt (max (Σ (x − μ)² / d) ε + ε),
    for every extended real a in the place of x, every divisor d and every ε > 0. -/
theorem one_pass_eq_two_pass {ι : Type*} [Fintype ι] (r : ι → ℝ) (n : ℝ) (hn : (Fintype.card ι : ℝ) = n) (hn0 : n ≠ 0)
    (T μ a d ε : EReal) (hT : T = ∑ k, (r k : EReal)) (hμ : μ = Ideal.div T (n : EReal)) (hε : 0 < ε) :
    (a - μ) * Ideal.rsqrt (max (Ideal.div ((∑ k, (r k : EReal) * (r k : EReal)) - T * μ) d) ε + ε)
      = Ideal.div (a - μ) (Ideal.sqrt (max (Ideal.div (∑ k, ((r k : EReal) - μ) * ((r k : EReal) - μ)) d) ε + ε)) := by
  have hT' : T = ((∑ k, r k : ℝ) : EReal) := hT.trans (coe_sum _ _).symm
  have hμ' : μ = (((∑ k, r k) / n : ℝ) : EReal) := by
    rw [hμ, hT', Ideal.div_coe hn0, ← EReal.coe_mul]
    exact congrArg _ (by ring)
  have hM : (∑ k, (r k : EReal) * (r k : EReal)) - T * μ = ∑ k, ((r k : EReal) - μ) * ((r k : EReal) - μ) := by
    rw [hμ', hT']
    simp only [← EReal.coe_mul, ← EReal.coe_sub, ← coe_sum]
    rw [sum_sq_dev r n hn hn0]
  rw [hM]
  exact mul_rsqrt_eq_div_sqrt _ _ (lt_of_lt_of_le (lt_max_of_lt_right hε) (le_add_of_nonneg_right hε.le))

/-! ## The shapes and the two forms over x : [32, 64, 256, 256] -/

/-- The argument's shape, its [2048, 65536] view (row 64 b + c, column 256 h + w), and the per-image partial sums' shape. -/
abbrev Sx : Shape := ⟨4, ![32, 64, 256, 256]⟩
abbrev Sflat : Shape := ⟨2, ![2048, 65536]⟩
abbrev Spart : Shape := ⟨3, ![32, 64, 1]⟩

/-- x viewed as [2048, 65536]: entry (r, l) is x[r / 64, r % 64, l / 256, l % 256]. -/
def flat (x : Sx.Idx → EReal) : Sflat.Idx → EReal := fun j =>
  x (ix4 (⟨(j 0).val / 64, by have := idx2_lt0 j; omega⟩ : Fin 32) (⟨(j 0).val % 64, Nat.mod_lt _ (by norm_num)⟩ : Fin 64)
    (⟨(j 1).val / 256, by have := idx2_lt1 j; omega⟩ : Fin 256) (⟨(j 1).val % 256, Nat.mod_lt _ (by norm_num)⟩ : Fin 256))

/-- A [2048, 65536] array viewed back as [32, 64, 256, 256]: entry (b, c, h, w) is z[64 b + c, 256 h + w]. -/
def unflat (z : Sflat.Idx → EReal) : Sx.Idx → EReal := fun i =>
  z (ix2 (⟨(i 0).val * 64 + (i 1).val, by have h0 : (i 0).val < 32 := (i 0).isLt; have h1 : (i 1).val < 64 := (i 1).isLt; omega⟩ : Fin 2048)
    (⟨(i 2).val * 256 + (i 3).val, by have h2 : (i 2).val < 256 := (i 2).isLt; have h3 : (i 3).val < 256 := (i 3).isLt; omega⟩ : Fin 65536))

/-- Row 64 b + c of a [2048, 65536] array. -/
abbrev rowOf (b : Fin 32) (c : Fin 64) : Fin 2048 := ⟨b.val * 64 + c.val, by omega⟩

/-- The statistics pass: per batch image b and channel c, the sum of row 64 b + c … -/
def partSums (y : Sflat.Idx → EReal) : Spart.Idx → EReal := fun j =>
  ∑ l : Fin 65536, y (ix2 (rowOf ⟨(j 0).val, (j 0).isLt⟩ ⟨(j 1).val, (j 1).isLt⟩) l)
/-- … and the sum of its squares. -/
def partSqSums (y : Sflat.Idx → EReal) : Spart.Idx → EReal := fun j =>
  ∑ l : Fin 65536, y (ix2 (rowOf ⟨(j 0).val, (j 0).isLt⟩ ⟨(j 1).val, (j 1).isLt⟩) l)
    * y (ix2 (rowOf ⟨(j 0).val, (j 0).isLt⟩ ⟨(j 1).val, (j 1).isLt⟩) l)

/-- A channel's total of the 32 per-image partial sums. -/
def chanSum (p : Spart.Idx → EReal) (c : Fin 64) : EReal := ∑ b : Fin 32, p (ix3 b c (0 : Fin 1))

/-- The normalisation pass on the [2048, 65536] view, from the partial sums and sums of squares: the one-pass form. -/
def onePass (ps pq : Spart.Idx → EReal) (y : Sflat.Idx → EReal) : Sflat.Idx → EReal := fun j =>
  (y j - Ideal.div (chanSum ps ⟨(j 0).val % 64, Nat.mod_lt _ (by norm_num)⟩) (Ideal.ofBits .f32 0x4A000000#32))
    * Ideal.rsqrt (max (Ideal.div (chanSum pq ⟨(j 0).val % 64, Nat.mod_lt _ (by norm_num)⟩
          - chanSum ps ⟨(j 0).val % 64, Nat.mod_lt _ (by norm_num)⟩
            * Ideal.div (chanSum ps ⟨(j 0).val % 64, Nat.mod_lt _ (by norm_num)⟩) (Ideal.ofBits .f32 0x4A000000#32))
        (Ideal.ofBits .f32 0x49FFFFF8#32)) (Ideal.ofBits .f32 0x322BCC77#32) + Ideal.ofBits .f32 0x322BCC77#32)

/-- What the kernel computes, as one function of the argument. -/
def kernelOut (x : Sx.Idx → EReal) : Sx.Idx → EReal :=
  unflat (onePass (partSums (flat x)) (partSqSums (flat x)) (flat x))

/-- Entry k of channel c in the reference's flat order, k = 65536 b + 256 h + w. -/
def chanEntry (x : Sx.Idx → EReal) (c : Fin 64) (k : Fin 2097152) : EReal :=
  x (ix4 (⟨k.val / 65536, by have := k.isLt; omega⟩ : Fin 32) c (⟨k.val / 256 % 256, Nat.mod_lt _ (by norm_num)⟩ : Fin 256)
    (⟨k.val % 256, Nat.mod_lt _ (by norm_num)⟩ : Fin 256))

/-- The reference's channel mean: the flat sum (from the zero pattern) over n. -/
def refMean (x : Sx.Idx → EReal) (c : Fin 64) : EReal :=
  Ideal.div (Ideal.ofBits .f32 0x00000000#32 + ∑ k : Fin 2097152, chanEntry x c k) (Ideal.ofBits .f32 0x4A000000#32)

/-- The reference's sum of squared deviations from that mean. -/
def refM2 (x : Sx.Idx → EReal) (c : Fin 64) : EReal :=
  Ideal.ofBits .f32 0x00000000#32 + ∑ k : Fin 2097152, (chanEntry x c k - refMean x c) * (chanEntry x c k - refMean x c)

/-- What the reference computes, as one function of the argument: the two-pass form. -/
def refOut (x : Sx.Idx → EReal) : Sx.Idx → EReal := fun i =>
  Ideal.div (x i - refMean x ⟨(i 1).val, (i 1).isLt⟩)
    (Ideal.sqrt (max (Ideal.div (refM2 x ⟨(i 1).val, (i 1).isLt⟩) (Ideal.ofBits .f32 0x49FFFFF8#32)) (Ideal.ofBits .f32 0x322BCC77#32)
      + Ideal.ofBits .f32 0x322BCC77#32))

/-! ## The two arrangements of a channel's entries -/

/-- Entry (b, l) of channel c, l = 256 h + w the position inside the image plane. -/
def planeEntry (x : Sx.Idx → EReal) (c : Fin 64) (p : Fin 32 × Fin 65536) : EReal :=
  x (ix4 p.1 c (⟨p.2.val / 256, by have := p.2.isLt; omega⟩ : Fin 256) (⟨p.2.val % 256, Nat.mod_lt _ (by norm_num)⟩ : Fin 256))

/-- The flat order k = 65536 b + l lists the pairs (b, l) once each. -/
theorem sum_chanEntry {M : Type*} [AddCommMonoid M] (g : EReal → M) (x : Sx.Idx → EReal) (c : Fin 64) :
    ∑ k : Fin 2097152, g (chanEntry x c k) = ∑ p : Fin 32 × Fin 65536, g (planeEntry x c p) := by
  refine (Fintype.sum_equiv (finProdFinEquiv (m := 32) (n := 65536)) _ _ fun p => ?_).symm
  unfold planeEntry chanEntry
  refine congrArg g (congrArg x (funext fun a => Fin.ext ?_))
  have h1 := p.1.isLt
  have h2 := p.2.isLt
  match a with
  | ⟨0, _⟩ => show p.1.val = (p.2.val + 65536 * p.1.val) / 65536; omega
  | ⟨1, _⟩ => rfl
  | ⟨2, _⟩ => show p.2.val / 256 = (p.2.val + 65536 * p.1.val) / 256 % 256; omega
  | ⟨3, _⟩ => show p.2.val % 256 = (p.2.val + 65536 * p.1.val) % 256; omega

/-- A row of the [2048, 65536] view is one channel of one image: entry (64 b + c, l) of the view is entry (b, l) of channel c. -/
theorem flat_row (x : Sx.Idx → EReal) (b : Fin 32) (c : Fin 64) (l : Fin 65536) :
    flat x (ix2 (rowOf b c) l) = planeEntry x c (b, l) := by
  unfold flat planeEntry
  refine congrArg x (funext fun a => Fin.ext ?_)
  have h1 := b.isLt
  have h2 := c.isLt
  match a with
  | ⟨0, _⟩ => show (b.val * 64 + c.val) / 64 = b.val; omega
  | ⟨1, _⟩ => show (b.val * 64 + c.val) % 64 = c.val; omega
  | ⟨2, _⟩ => rfl
  | ⟨3, _⟩ => rfl

/-- The 32 partial sums of a channel add up to the sum over the channel's pairs (b, l). -/
theorem chanSum_partSums (x : Sx.Idx → EReal) (c : Fin 64) :
    chanSum (partSums (flat x)) c = ∑ p : Fin 32 × Fin 65536, planeEntry x c p := by
  unfold chanSum partSums
  rw [Fintype.sum_prod_type]
  exact Finset.sum_congr rfl fun b _ => Finset.sum_congr rfl fun l _ => flat_row x b c l

theorem chanSum_partSqSums (x : Sx.Idx → EReal) (c : Fin 64) :
    chanSum (partSqSums (flat x)) c = ∑ p : Fin 32 × Fin 65536, planeEntry x c p * planeEntry x c p := by
  unfold chanSum partSqSums
  rw [Fintype.sum_prod_type]
  exact Finset.sum_congr rfl fun b _ => Finset.sum_congr rfl fun l _ => by rw [flat_row x b c l]

/-! ## The two programs' functions agree on finite arguments -/

theorem kernelOut_eq_refOut (x : Sx.Idx → EReal) (hfin : ∀ i, ∃ r : ℝ, x i = (r : EReal)) : kernelOut x = refOut x := by
  funext i
  choose r hr using hfin
  have h0 : (i 0).val < 32 := (i 0).isLt
  have h1 : (i 1).val < 64 := (i 1).isLt
  have h2 : (i 2).val < 256 := (i 2).isLt
  have h3 : (i 3).val < 256 := (i 3).isLt
  -- the channel of row 64 b + c is c, and the view read back at (b, c, h, w) is x there
  have hc : (⟨((i 0).val * 64 + (i 1).val) % 64, Nat.mod_lt _ (by norm_num)⟩ : Fin 64) = ⟨(i 1).val, (i 1).isLt⟩ :=
    Fin.ext (by show ((i 0).val * 64 + (i 1).val) % 64 = (i 1).val; omega)
  have hx : flat x (ix2 (⟨(i 0).val * 64 + (i 1).val, by omega⟩ : Fin 2048) (⟨(i 2).val * 256 + (i 3).val, by omega⟩ : Fin 65536)) = x i := by
    unfold flat
    refine congrArg x (funext fun a => Fin.ext ?_)
    match a with
    | ⟨0, _⟩ => show ((i 0).val * 64 + (i 1).val) / 64 = (i 0).val; omega
    | ⟨1, _⟩ => show ((i 0).val * 64 + (i 1).val) % 64 = (i 1).val; omega
    | ⟨2, _⟩ => show ((i 2).val * 256 + (i 3).val) / 256 = (i 2).val; omega
    | ⟨3, _⟩ => show ((i 2).val * 256 + (i 3).val) % 256 = (i 3).val; omega
  show onePass (partSums (flat x)) (partSqSums (flat x)) (flat x) (ix2 _ _) = _
  unfold onePass refOut refM2 refMean
  rw [hx]
  show (x i - Ideal.div (chanSum (partSums (flat x)) ⟨((i 0).val * 64 + (i 1).val) % 64, _⟩) _) * _ = _
  rw [hc, chanSum_partSums, chanSum_partSqSums, Ideal.ofBits_zero_f32, zero_add, zero_add,
    sum_chanEntry (fun e => e) x, count_eq]
  set c : Fin 64 := ⟨(i 1).val, (i 1).isLt⟩ with hcdef
  rw [sum_chanEntry (fun e => (e - Ideal.div (∑ p : Fin 32 × Fin 65536, planeEntry x c p) ((2097152 : ℝ) : EReal))
    * (e - Ideal.div (∑ p : Fin 32 × Fin 65536, planeEntry x c p) ((2097152 : ℝ) : EReal))) x]
  -- every entry of the channel is a real
  have hρ : ∀ p : Fin 32 × Fin 65536, planeEntry x c p
      = ((r (ix4 p.1 c (⟨p.2.val / 256, by have := p.2.isLt; omega⟩ : Fin 256) (⟨p.2.val % 256, Nat.mod_lt _ (by norm_num)⟩ : Fin 256)) : ℝ) : EReal) :=
    fun p => hr _
  simp only [hρ]
  exact one_pass_eq_two_pass _ 2097152 (by simp [Fintype.card_prod]) (by norm_num) _ _ (x i) _ _ rfl rfl eps_pos

end Cert.Standardize

end
-- ==== Proof.FiniteInputs.lean ====
/-
  The precondition read back: `finite_inputs` compares |x| with the pattern of +∞ entry by entry and takes the
  conjunction of all the comparisons.  If that conjunction is 1 then every comparison is, and an extended real whose
  absolute value is below +∞ is a real.
-/
import proofs.«100170_g85839216378453_pilotgen1_451_2_alg».proof.Pre_finite_inputs
import Idealize.ShloMosaic.Lib.ReduceAll
import Idealize.ShloMosaic.Lib.ValueIdx
import Idealize.ShloMosaic.PureOps.Ideal

noncomputable section

namespace Cert.FiniteInputs

open Idealize.ShloMosaic Idealize.ShloMosaic.ValueIdx

instance : Subsingleton Cert.Pre_finite_inputs.S_.Idx := ⟨fun a b => funext fun d => d.elim0⟩

/-- The pattern 0x7F800000 denotes +∞. -/
theorem inf_pattern : Ideal.ofBits .f32 0x7F800000#32 = ⊤ := by
  simp [Ideal.ofBits, Ideal.ieee]

/-- An extended real whose absolute value compares below +∞ is a real. -/
theorem real_of_abs_lt_top (a : EReal) (h : Ideal.cmp .olt (max a (-a)) (Ideal.ofBits .f32 0x7F800000#32) = 1#1) :
    ∃ r : ℝ, a = (r : EReal) := by
  rw [inf_pattern] at h
  induction a using EReal.rec with
  | bot => simp [Ideal.cmp] at h
  | top => simp [Ideal.cmp] at h
  | coe r => exact ⟨r, rfl⟩

/-- Under `finite_inputs` every entry of the argument is a real. -/
theorem real_of_pre [Cert.Pre_finite_inputs.Facts] (x : FVec Ideal Cert.Pre_finite_inputs.S32x64x256x256 .f32)
    (h : Cert.Pre_finite_inputs.fn (F := Ideal) x = fun _ => 1#1) (i : Cert.Pre_finite_inputs.S32x64x256x256.Idx) :
    ∃ r : ℝ, x i = (r : EReal) := by
  have h0 := congrFun h ix0
  dsimp only [Cert.Pre_finite_inputs.fn] at h0
  have hi := Host.reduce_andi_all _ _ _ _ ix0 h0 i
  exact real_of_abs_lt_top (x i) hi

end Cert.FiniteInputs

end
-- ==== Proof.NamedRun.lean ====
/-
  The idealized kernel's run with its result array named.  @main is a reshape of the argument to [2048, 65536], the
  statistics pass (one grid point per batch image), the normalisation pass (two grid points per batch image), and a
  reshape back to [32, 64, 256, 256].  Every weakly fair execution terminates with the result buffer holding the fold of
  the buffer contents through those four segments (`Gen.W4`, read at the result's reference) and the argument as
  launched: the segments' launch, with the final state read at the result as well as at the argument.
-/
import proofs.«100170_g85839216378453_pilotgen1_451_2_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer then holds the last segment
    boundary's contents at the result's reference, and the argument is as launched. -/
theorem run : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v3 (by decide)),
       (h c _ (mem_uc main_arg0 (by decide))).trans (W4_main_arg0 m ρ c)⟩)

end Cert.KernelIdeal.NamedRun

end
-- ==== Proof.StatsPass.lean ====
/-
  The statistics pass, read as values at the extended reals.  The pass runs over the [2048, 65536] view y of the argument,
  one grid point per batch image b: its input block is rows 64 b … 64 b + 63 of y (the 64 channels of image b), and it
  writes back, for each channel c, the sum of row 64 b + c into entry (b, c, 0) of the first [32, 64, 1] array and the sum
  of that row's squares into entry (b, c, 0) of the second.  The 32 blocks of each output tile it, so after the pass the
  two arrays are `partSums y` and `partSqSums y`.
-/
import proofs.«100170_g85839216378453_pilotgen1_451_2_alg».proof.Proof.Gen.KernelIdeal.Frame
import proofs.«100170_g85839216378453_pilotgen1_451_2_alg».proof.Proof.Moments
import Idealize.ShloMosaic.Lib.Pipeline.Value
import Idealize.ShloMosaic.Lib.ValueIdx
import Idealize.ShloMosaic.PureOps.Ideal.Laws

set_option maxRecDepth 16384

noncomputable section

namespace Cert.KernelIdeal.StatsPass

open Cert.KernelIdeal Cert.KernelIdeal.Gen Cert.Standardize
open Idealize.ShloMosaic Idealize.ShloMosaic.TcCoe Idealize.ShloMosaic.ValueIdx Idealize.SL.Sem
open Idealize.ShloMosaic.Pipeline (Dat)

-- the buffer contents the pass is entered from
variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## The body's two results at an index: a row sum, and a row sum of squares -/

/-- The [1, 64, 1] result holds at (0, c, 0) the sum over the 65536 lanes of row c of the block. -/
theorem rowSum_at (x0 : FVec Ideal S64x65536 .f32) (j : S1x64x1.Idx) :
    k0_pay2 x0 j = ∑ l : Fin 65536, x0 (ix2 (⟨(j 1).val, (j 1).isLt⟩ : Fin 64) l) := by
  have h0 : (j 0).val < 1 := (j 0).isLt
  have h1 : (j 1).val < 64 := (j 1).isLt
  have h2 : (j 2).val < 1 := (j 2).isLt
  unfold k0_pay2 k0_pay1
  refine (shapeCast_apply _ shapeCasts_S64x1_S1x64x1 j (ix2 (⟨(j 1).val, (j 1).isLt⟩ : Fin 64) (⟨0, Nat.one_pos⟩ : Fin 1))
    (by rewrite [Shape.rowMajor_val_two, Shape.rowMajor_val_three]
        show (j 1).val * 1 + 0 = ((j 0).val * 64 + (j 1).val) * 1 + (j 2).val; omega)).trans ?_
  refine (shapeCast_apply _ shapeCasts_S64_S64x1 _ (ix1 (⟨(j 1).val, (j 1).isLt⟩ : Fin 64))
    (by rewrite [Shape.rowMajor_val_one, Shape.rowMajor_val_two]
        show (j 1).val = (j 1).val * 1 + 0; omega)).trans ?_
  refine (Ideal.multiReduction_add_single _ 0x00000000#32 reduces_S64x65536_S64 (.inl rfl) rfl _).trans ?_
  refine Finset.sum_congr rfl fun l _ => ?_
  rw [shapeCast_self]
  exact congrArg x0 (funext fun a => Fin.ext (by match a with | ⟨0, _⟩ => rfl | ⟨1, _⟩ => rfl))

/-- The second [1, 64, 1] result holds at (0, c, 0) the sum of the squares of row c of the block. -/
theorem rowSqSum_at (x0 : FVec Ideal S64x65536 .f32) (j : S1x64x1.Idx) :
    k0_pay3 x0 j = ∑ l : Fin 65536, x0 (ix2 (⟨(j 1).val, (j 1).isLt⟩ : Fin 64) l) * x0 (ix2 (⟨(j 1).val, (j 1).isLt⟩ : Fin 64) l) := by
  have h0 : (j 0).val < 1 := (j 0).isLt
  have h1 : (j 1).val < 64 := (j 1).isLt
  have h2 : (j 2).val < 1 := (j 2).isLt
  unfold k0_pay3 k0_pay1
  refine (shapeCast_apply _ shapeCasts_S64x1_S1x64x1 j (ix2 (⟨(j 1).val, (j 1).isLt⟩ : Fin 64) (⟨0, Nat.one_pos⟩ : Fin 1))
    (by rewrite [Shape.rowMajor_val_two, Shape.rowMajor_val_three]
        show (j 1).val * 1 + 0 = ((j 0).val * 64 + (j 1).val) * 1 + (j 2).val; omega)).trans ?_
  refine (shapeCast_apply _ shapeCasts_S64_S64x1 _ (ix1 (⟨(j 1).val, (j 1).isLt⟩ : Fin 64))
    (by rewrite [Shape.rowMajor_val_one, Shape.rowMajor_val_two]
        show (j 1).val = (j 1).val * 1 + 0; omega)).trans ?_
  refine (Ideal.multiReduction_add_single _ 0x00000000#32 reduces_S64x65536_S64 (.inl rfl) rfl _).trans ?_
  refine Finset.sum_congr rfl fun l _ => ?_
  rw [shapeCast_self]
  exact congrArg (fun e => x0 e * x0 e) (funext fun a => Fin.ext (by match a with | ⟨0, _⟩ => rfl | ⟨1, _⟩ => rfl))

/-! ## Where each grid point's blocks sit -/

/-- Point t reads rows 64 t … 64 t + 63 and writes row t of each output (all other block indices zero). -/
theorem block_indices : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- Entry (c, l) of the input block at point t is entry (64 t + c, l) of the view. -/
theorem in_block_at (c : Dev nD) (t : Fin cfg0.N) (cc : Fin 64) (l : Fin 65536) (ht : t.val < 32) :
    iblk0 V c 0 t (ix2 cc l) = (V c main_v0 : S2048x65536.Idx → EReal) (ix2 (rowOf ⟨t.val, ht⟩ cc) l) := by
  obtain ⟨e0, e1, -⟩ := block_indices t
  show V c main_v0 (((cfg0.win 0).blk t).view.emb (ix2 cc l)) = V c main_v0 _
  refine congrArg (V c main_v0) (funext fun a => Fin.ext ?_)
  have hc := cc.isLt
  match a with
  | ⟨0, _⟩ => show win0_0.index t (0 : Fin 2) * 64 + 1 * cc.val = t.val * 64 + cc.val; rw [e0]; omega
  | ⟨1, _⟩ => show win0_0.index t (1 : Fin 2) * 65536 + 1 * l.val = l.val; rw [e1]; omega

/-! ## What each point writes back is its block of the whole-array function -/

theorem flushed_sums (c : Dev nD) (t : Fin cfg0.N) :
    (dat0 V c).flushed 1 t = ((cfg0.win 1).blk t).view.read (Elt Ideal) (partSums (V c main_v0)) := by
  have ht : t.val < 32 := by have := t.isLt; have hN : cfg0.N = 32 := N_0; omega
  obtain ⟨-, -, e0, e1, e2, -⟩ := block_indices t
  show (cfg0.win 1).cut (grid0.coords t) ((dat0 V c).after 1 t) = _
  rw [after0_1]
  unfold out0_1
  rw [View.canon_unit_zero zeros3]
  simp only [View.ld_unit_zero (S := S64x65536) zeros2]
  funext j
  refine (rowSum_at (iblk0 V c 0 t) _).trans ?_
  rw [View.read_apply]
  refine Eq.trans ?_ (cast_eq _ _).symm
  unfold partSums
  refine Finset.sum_congr rfl fun l _ => ?_
  refine (in_block_at V c t _ l ht).trans (congrArg (V c main_v0) (congrArg (fun r => ix2 r l) (Fin.ext ?_)))
  have h0 : (j 0).val < 1 := (j 0).isLt
  have h1 : (j 1).val < 64 := (j 1).isLt
  show t.val * 64 + (j 1).val = (win0_1.index t (0 : Fin 3) * 1 + 1 * (j 0).val) * 64 + (win0_1.index t (1 : Fin 3) * 64 + 1 * (j 1).val)
  rw [e0, e1]; omega

theorem flushed_sqSums (c : Dev nD) (t : Fin cfg0.N) :
    (dat0 V c).flushed 2 t = ((cfg0.win 2).blk t).view.read (Elt Ideal) (partSqSums (V c main_v0)) := by
  have ht : t.val < 32 := by have := t.isLt; have hN : cfg0.N = 32 := N_0; omega
  obtain ⟨-, -, -, -, -, e0, e1, e2⟩ := block_indices t
  show (cfg0.win 2).cut (grid0.coords t) ((dat0 V c).after 2 t) = _
  rw [after0_2]
  unfold out0_2
  rw [View.canon_unit_zero zeros3]
  simp only [View.ld_unit_zero (S := S64x65536) zeros2]
  funext j
  refine (rowSqSum_at (iblk0 V c 0 t) _).trans ?_
  rw [View.read_apply]
  refine Eq.trans ?_ (cast_eq _ _).symm
  unfold partSqSums
  refine Finset.sum_congr rfl fun l _ => ?_
  have h0 : (j 0).val < 1 := (j 0).isLt
  have h1 : (j 1).val < 64 := (j 1).isLt
  have hrow : iblk0 V c 0 t (ix2 (⟨(j 1).val, (j 1).isLt⟩ : Fin 64) l)
      = (V c main_v0 : S2048x65536.Idx → EReal) (ix2 (rowOf ⟨((((cfg0.win 2).blk t).view.emb j) 0).val, ((((cfg0.win 2).blk t).view.emb j) 0).isLt⟩
          ⟨((((cfg0.win 2).blk t).view.emb j) 1).val, ((((cfg0.win 2).blk t).view.emb j) 1).isLt⟩) l) := by
    refine (in_block_at V c t _ l ht).trans (congrArg (V c main_v0) (congrArg (fun r => ix2 r l) (Fin.ext ?_)))
    show t.val * 64 + (j 1).val = (win0_2.index t (0 : Fin 3) * 1 + 1 * (j 0).val) * 64 + (win0_2.index t (1 : Fin 3) * 64 + 1 * (j 1).val)
    rw [e0, e1]; omega
  rw [hrow]

/-! ## The blocks tile each output -/

theorem mem_block_sums (t : Fin cfg0.N) (i : S32x64x1.Idx) :
    i ∈ ((cfg0.win 1).blk t).view.set ↔ ∀ a : Fin 3, win0_1.index t a * S1x64x1.size a ≤ (i a).val ∧ (i a).val < win0_1.index t a * S1x64x1.size a + S1x64x1.size a := by
  show i ∈ ((View.whole main_v1_0).slice (win0_1.rect t)).set ↔ _
  rw [View.set_slice_whole, Rect.mem_set_unit]
  exact Iff.rfl

theorem mem_block_sqSums (t : Fin cfg0.N) (i : S32x64x1.Idx) :
    i ∈ ((cfg0.win 2).blk t).view.set ↔ ∀ a : Fin 3, win0_2.index t a * S1x64x1.size a ≤ (i a).val ∧ (i a).val < win0_2.index t a * S1x64x1.size a + S1x64x1.size a := by
  show i ∈ ((View.whole main_v1_1).slice (win0_2.rect t)).set ↔ _
  rw [View.set_slice_whole, Rect.mem_set_unit]
  exact Iff.rfl

/-- Entry (b, c, 0) lies in the block of point b. -/
theorem covered_sums (i : S32x64x1.Idx) : ∃ t : Fin cfg0.N, (cfg0.win 1).flush t = true ∧ i ∈ ((cfg0.win 1).blk t).view.set := by
  have h0 : (i 0).val < 32 := (i 0).isLt
  have h1 : (i 1).val < 64 := (i 1).isLt
  have h2 : (i 2).val < 1 := (i 2).isLt
  refine ⟨⟨(i 0).val, by rw [show cfg0.N = 32 from N_0]; exact h0⟩, flush0_1 _, ?_⟩
  obtain ⟨-, -, e0, e1, e2, -⟩ := block_indices ⟨(i 0).val, by rw [show cfg0.N = 32 from N_0]; exact h0⟩
  rw [mem_block_sums]
  intro a
  match a with
  | ⟨0, _⟩ => show win0_1.index _ (0 : Fin 3) * 1 ≤ (i 0).val ∧ (i 0).val < win0_1.index _ (0 : Fin 3) * 1 + 1; rw [e0]; show (i 0).val * 1 ≤ (i 0).val ∧ (i 0).val < (i 0).val * 1 + 1; omega
  | ⟨1, _⟩ => show win0_1.index _ (1 : Fin 3) * 64 ≤ (i 1).val ∧ (i 1).val < win0_1.index _ (1 : Fin 3) * 64 + 64; rw [e1]; omega
  | ⟨2, _⟩ => show win0_1.index _ (2 : Fin 3) * 1 ≤ (i 2).val ∧ (i 2).val < win0_1.index _ (2 : Fin 3) * 1 + 1; rw [e2]; omega

theorem covered_sqSums (i : S32x64x1.Idx) : ∃ t : Fin cfg0.N, (cfg0.win 2).flush t = true ∧ i ∈ ((cfg0.win 2).blk t).view.set := by
  have h0 : (i 0).val < 32 := (i 0).isLt
  have h1 : (i 1).val < 64 := (i 1).isLt
  have h2 : (i 2).val < 1 := (i 2).isLt
  refine ⟨⟨(i 0).val, by rw [show cfg0.N = 32 from N_0]; exact h0⟩, flush0_2 _, ?_⟩
  obtain ⟨-, -, -, -, -, e0, e1, e2⟩ := block_indices ⟨(i 0).val, by rw [show cfg0.N = 32 from N_0]; exact h0⟩
  rw [mem_block_sqSums]
  intro a
  match a with
  | ⟨0, _⟩ => show win0_2.index _ (0 : Fin 3) * 1 ≤ (i 0).val ∧ (i 0).val < win0_2.index _ (0 : Fin 3) * 1 + 1; rw [e0]; show (i 0).val * 1 ≤ (i 0).val ∧ (i 0).val < (i 0).val * 1 + 1; omega
  | ⟨1, _⟩ => show win0_2.index _ (1 : Fin 3) * 64 ≤ (i 1).val ∧ (i 1).val < win0_2.index _ (1 : Fin 3) * 64 + 64; rw [e1]; omega
  | ⟨2, _⟩ => show win0_2.index _ (2 : Fin 3) * 1 ≤ (i 2).val ∧ (i 2).val < win0_2.index _ (2 : Fin 3) * 1 + 1; rw [e2]; omega

/-! ## The two arrays after the pass -/

/-- After the pass the first output array is the per-image row sums of the view the pass was entered with … -/
theorem sums_after (c : Dev nD) : (dat0 V c).arrAt 1 cfg0.N = partSums (V c main_v0) :=
  (dat0 V c).arrAt_eq_of_cover 1 (partSums (V c main_v0)) (fun t _ => flushed_sums V c t) covered_sums

/-- … and the second the per-image row sums of squares. -/
theorem sqSums_after (c : Dev nD) : (dat0 V c).arrAt 2 cfg0.N = partSqSums (V c main_v0) :=
  (dat0 V c).arrAt_eq_of_cover 2 (partSqSums (V c main_v0)) (fun t _ => flushed_sqSums V c t) covered_sqSums

end Cert.KernelIdeal.StatsPass

end
-- ==== Proof.NormalizePass.lean ====
/-
  The normalisation pass, read as values at the extended reals.  The pass runs over the [2048, 65536] view y of the
  argument on a 32 × 2 grid: at point (b, s) it reads the two whole [32, 64, 1] arrays of partial sums p and partial sums
  of squares q, and columns 32768 s … 32768 s + 32767 of rows 64 b … 64 b + 63 of y, and writes back the same block of
  the result.  Row c of the block belongs to channel c; with T = Σ_b p[b, c, 0], Q = Σ_b q[b, c, 0], μ = T / n and
  M = Q − T μ its entries are (y − μ) · rsqrt (max (M / d) ε + ε).  The 64 blocks tile the result, so after the pass it is
  `onePass p q y`.
-/
import proofs.«100170_g85839216378453_pilotgen1_451_2_alg».proof.Proof.Gen.KernelIdeal.Frame
import proofs.«100170_g85839216378453_pilotgen1_451_2_alg».proof.Proof.Moments
import Idealize.ShloMosaic.Lib.Pipeline.Value
import Idealize.ShloMosaic.Lib.ValueIdx
import Idealize.ShloMosaic.PureOps.Ideal.Laws

set_option maxRecDepth 16384

noncomputable section

namespace Cert.KernelIdeal.NormalizePass

open Cert.KernelIdeal Cert.KernelIdeal.Gen Cert.Standardize
open Idealize.ShloMosaic Idealize.ShloMosaic.TcCoe Idealize.ShloMosaic.ValueIdx Idealize.SL.Sem
open Idealize.ShloMosaic.Pipeline (Dat)

-- the buffer contents the pass is entered from
variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## The body's result at an index -/

/-- The sum over the 32 images of a [32, 64, 1] array, at (c, 0), is the channel's total. -/
theorem chanTotal_at (p : FVec Ideal S32x64x1 .f32) (k : S64x1.Idx) :
    multiReduction .add [0] S64x1 (shapeCast S32x64x1 p shapeCasts_S32x64x1_S32x64x1) 0x00000000#32 reduces_S32x64x1_S64x1 (.inl rfl) rfl k
      = chanSum p ⟨(k 0).val, (k 0).isLt⟩ := by
  have h1 : (k 1).val < 1 := (k 1).isLt
  refine (Ideal.multiReduction_add_single _ 0x00000000#32 reduces_S32x64x1_S64x1 (.inl rfl) rfl k).trans ?_
  unfold chanSum
  refine Finset.sum_congr rfl fun b _ => ?_
  rw [shapeCast_self]
  exact congrArg p (funext fun a => Fin.ext (by
    match a with
    | ⟨0, _⟩ => rfl
    | ⟨1, _⟩ => rfl
    | ⟨2, _⟩ => show (k 1).val = 0; omega))

/-- A [64, 1] column broadcast along the lanes reads, at (c, l), the column's entry (c, 0). -/
theorem lanes_at (v : FVec Ideal S64x1 .f32) (j : S64x32768.Idx) :
    broadcastTo S64x32768 v broadcasts_S64x1_S64x32768 j = v (ix2 (⟨(j 0).val, (j 0).isLt⟩ : Fin 64) (⟨0, Nat.one_pos⟩ : Fin 1)) :=
  broadcastTo_apply v broadcasts_S64x1_S64x32768 j _ (fun a => match a with
    | ⟨0, _⟩ => by show (j 0).val = if (64 : Nat) = 1 then 0 else (j 0).val; rw [if_neg (by decide)]
    | ⟨1, _⟩ => by show 0 = if (1 : Nat) = 1 then 0 else (j 1).val; rw [if_pos rfl])

theorem rsqrt_at {s : Shape} (v : FVec Ideal s .f32) (i : s.Idx) : rsqrt v i = Ideal.rsqrt (v i) := rfl

/-- Entry (c, l) of the body's result: the block's entry standardised by channel c's one-pass moments. -/
theorem standardized_at (p q : FVec Ideal S32x64x1 .f32) (y : FVec Ideal S64x32768 .f32) (j : S64x32768.Idx) :
    k1_pay1 p q y j
      = (y j - Ideal.div (chanSum p ⟨(j 0).val, (j 0).isLt⟩) (Ideal.ofBits .f32 0x4A000000#32))
        * Ideal.rsqrt (max (Ideal.div (chanSum q ⟨(j 0).val, (j 0).isLt⟩
              - chanSum p ⟨(j 0).val, (j 0).isLt⟩ * Ideal.div (chanSum p ⟨(j 0).val, (j 0).isLt⟩) (Ideal.ofBits .f32 0x4A000000#32))
            (Ideal.ofBits .f32 0x49FFFFF8#32)) (Ideal.ofBits .f32 0x322BCC77#32) + Ideal.ofBits .f32 0x322BCC77#32) := by
  unfold k1_pay1
  dsimp only
  rw [mulf_apply, subf_apply, lanes_at, lanes_at, shapeCast_self]
  simp only [rsqrt_at, addf_apply, maximumf_apply, divf_apply, subf_apply, mulf_apply, broadcast_apply]
  rw [chanTotal_at p, chanTotal_at q]
  rfl

/-! ## Where each grid point's blocks sit -/

/-- Point t = 2 b + s reads the whole partial-sum arrays, and reads and writes block (b, s) of the view. -/
theorem block_indices : ∀ t : Fin cfg1.N,
    win1_0.index t (0 : Fin 3) = 0 ∧ win1_0.index t (1 : Fin 3) = 0 ∧ win1_0.index t (2 : Fin 3) = 0
    ∧ win1_1.index t (0 : Fin 3) = 0 ∧ win1_1.index t (1 : Fin 3) = 0 ∧ win1_1.index t (2 : Fin 3) = 0
    ∧ win1_2.index t (0 : Fin 2) = t.val / 2 ∧ win1_2.index t (1 : Fin 2) = t.val % 2
    ∧ win1_3.index t (0 : Fin 2) = t.val / 2 ∧ win1_3.index t (1 : Fin 2) = t.val % 2 :=
  (by decide +kernel : ∀ t : Fin grid1.N, _)

/-- The first input block is the whole array of partial sums … -/
theorem sums_block_at (c : Dev nD) (t : Fin cfg1.N) (y : S32x64x1.Idx) :
    iblk1 V c 0 t y = (V c main_v1_0 : S32x64x1.Idx → EReal) y := by
  obtain ⟨e0, e1, e2, -⟩ := block_indices t
  show V c main_v1_0 (((cfg1.win 0).blk t).view.emb y) = V c main_v1_0 y
  refine congrArg (V c main_v1_0) (funext fun a => Fin.ext ?_)
  match a with
  | ⟨0, _⟩ => show win1_0.index t (0 : Fin 3) * 32 + 1 * (y 0).val = (y 0).val; rw [e0]; omega
  | ⟨1, _⟩ => show win1_0.index t (1 : Fin 3) * 64 + 1 * (y 1).val = (y 1).val; rw [e1]; omega
  | ⟨2, _⟩ => show win1_0.index t (2 : Fin 3) * 1 + 1 * (y 2).val = (y 2).val; rw [e2]; omega

/-- … the second the whole array of partial sums of squares. -/
theorem sqSums_block_at (c : Dev nD) (t : Fin cfg1.N) (y : S32x64x1.Idx) :
    iblk1 V c 1 t y = (V c main_v1_1 : S32x64x1.Idx → EReal) y := by
  obtain ⟨-, -, -, e0, e1, e2, -⟩ := block_indices t
  show V c main_v1_1 (((cfg1.win 1).blk t).view.emb y) = V c main_v1_1 y
  refine congrArg (V c main_v1_1) (funext fun a => Fin.ext ?_)
  match a with
  | ⟨0, _⟩ => show win1_1.index t (0 : Fin 3) * 32 + 1 * (y 0).val = (y 0).val; rw [e0]; omega
  | ⟨1, _⟩ => show win1_1.index t (1 : Fin 3) * 64 + 1 * (y 1).val = (y 1).val; rw [e1]; omega
  | ⟨2, _⟩ => show win1_1.index t (2 : Fin 3) * 1 + 1 * (y 2).val = (y 2).val; rw [e2]; omega

/-- The third input block sits where the output block sits. -/
theorem view_block_at (c : Dev nD) (t : Fin cfg1.N) (j : S64x32768.Idx) :
    iblk1 V c 2 t j = (V c main_v0 : S2048x65536.Idx → EReal) (((cfg1.win 3).blk t).view.emb j) := by
  obtain ⟨-, -, -, -, -, -, e0, e1, f0, f1⟩ := block_indices t
  show V c main_v0 (((cfg1.win 2).blk t).view.emb j) = V c main_v0 _
  refine congrArg (V c main_v0) (funext fun a => Fin.ext ?_)
  match a with
  | ⟨0, _⟩ => show win1_2.index t (0 : Fin 2) * 64 + 1 * (j 0).val = win1_3.index t (0 : Fin 2) * 64 + 1 * (j 0).val; rw [e0, f0]
  | ⟨1, _⟩ => show win1_2.index t (1 : Fin 2) * 32768 + 1 * (j 1).val = win1_3.index t (1 : Fin 2) * 32768 + 1 * (j 1).val; rw [e1, f1]

/-! ## What each point writes back is its block of the whole-array function -/

theorem flushed_out (c : Dev nD) (t : Fin cfg1.N) :
    (dat1 V c).flushed 3 t
      = ((cfg1.win 3).blk t).view.read (Elt Ideal) (onePass (V c main_v1_0) (V c main_v1_1) (V c main_v0)) := by
  obtain ⟨-, -, -, -, -, -, -, -, f0, f1⟩ := block_indices t
  show (cfg1.win 3).cut (grid1.coords t) ((dat1 V c).after 3 t) = _
  rw [after1_3]
  unfold out1_3
  rw [View.canon_unit_zero zeros2]
  simp only [View.ld_unit_zero (S := S32x64x1) zeros3, View.ld_unit_zero (S := S64x32768) zeros2]
  funext j
  show k1_pay1 (iblk1 V c 0 t) (iblk1 V c 1 t) (iblk1 V c 2 t) j
    = onePass (V c main_v1_0) (V c main_v1_1) (V c main_v0) (((cfg1.win 3).blk t).view.emb j)
  refine (standardized_at _ _ _ j).trans ?_
  have h0 : (j 0).val < 64 := (j 0).isLt
  have hp : chanSum (iblk1 V c 0 t) ⟨(j 0).val, (j 0).isLt⟩ = chanSum (V c main_v1_0) ⟨(j 0).val, (j 0).isLt⟩ := by
    unfold chanSum; exact Finset.sum_congr rfl fun b _ => sums_block_at V c t _
  have hq : chanSum (iblk1 V c 1 t) ⟨(j 0).val, (j 0).isLt⟩ = chanSum (V c main_v1_1) ⟨(j 0).val, (j 0).isLt⟩ := by
    unfold chanSum; exact Finset.sum_congr rfl fun b _ => sqSums_block_at V c t _
  have hch : (⟨((((cfg1.win 3).blk t).view.emb j) 0).val % 64, Nat.mod_lt _ (by norm_num)⟩ : Fin 64) = ⟨(j 0).val, (j 0).isLt⟩ :=
    Fin.ext (by show (win1_3.index t (0 : Fin 2) * 64 + 1 * (j 0).val) % 64 = (j 0).val; omega)
  unfold onePass
  rw [hp, hq, view_block_at V c t j, hch]

/-! ## The blocks tile the result -/

theorem mem_block_out (t : Fin cfg1.N) (i : S2048x65536.Idx) :
    i ∈ ((cfg1.win 3).blk t).view.set ↔ ∀ a : Fin 2, win1_3.index t a * S64x32768.size a ≤ (i a).val ∧ (i a).val < win1_3.index t a * S64x32768.size a + S64x32768.size a := by
  show i ∈ ((View.whole main_v2).slice (win1_3.rect t)).set ↔ _
  rw [View.set_slice_whole, Rect.mem_set_unit]
  exact Iff.rfl

/-- Entry (r, l) lies in the block of point 2 (r / 64) + l / 32768. -/
theorem covered_out (i : S2048x65536.Idx) : ∃ t : Fin cfg1.N, (cfg1.win 3).flush t = true ∧ i ∈ ((cfg1.win 3).blk t).view.set := by
  have h0 : (i 0).val < 2048 := (i 0).isLt
  have h1 : (i 1).val < 65536 := (i 1).isLt
  have hN : cfg1.N = 64 := N_1
  have ht : (i 0).val / 64 * 2 + (i 1).val / 32768 < cfg1.N := by rw [hN]; omega
  refine ⟨⟨(i 0).val / 64 * 2 + (i 1).val / 32768, ht⟩, flush1_3 _, ?_⟩
  obtain ⟨-, -, -, -, -, -, -, -, f0, f1⟩ := block_indices ⟨(i 0).val / 64 * 2 + (i 1).val / 32768, ht⟩
  rw [mem_block_out]
  intro a
  match a with
  | ⟨0, _⟩ =>
    show win1_3.index _ (0 : Fin 2) * 64 ≤ (i 0).val ∧ (i 0).val < win1_3.index _ (0 : Fin 2) * 64 + 64
    rw [f0]; show ((i 0).val / 64 * 2 + (i 1).val / 32768) / 2 * 64 ≤ (i 0).val ∧ (i 0).val < ((i 0).val / 64 * 2 + (i 1).val / 32768) / 2 * 64 + 64
    omega
  | ⟨1, _⟩ =>
    show win1_3.index _ (1 : Fin 2) * 32768 ≤ (i 1).val ∧ (i 1).val < win1_3.index _ (1 : Fin 2) * 32768 + 32768
    rw [f1]; show ((i 0).val / 64 * 2 + (i 1).val / 32768) % 2 * 32768 ≤ (i 1).val ∧ (i 1).val < ((i 0).val / 64 * 2 + (i 1).val / 32768) % 2 * 32768 + 32768
    omega

/-! ## The result after the pass -/

/-- After the pass the result array is the one-pass standardisation of the view by the two partial-sum arrays, all three as
    the pass found them. -/
theorem out_after (c : Dev nD) :
    (dat1 V c).arrAt 3 cfg1.N = onePass (V c main_v1_0) (V c main_v1_1) (V c main_v0) :=
  (dat1 V c).arrAt_eq_of_cover 3 (onePass (V c main_v1_0) (V c main_v1_1) (V c main_v0)) (fun t _ => flushed_out V c t) covered_out

end Cert.KernelIdeal.NormalizePass

end
-- ==== Proof.KernelValue.lean ====
/-
  The idealized kernel's result as one function of its argument.  Through @main's four segments: the [2048, 65536] view
  of the argument; the statistics pass, which leaves the per-image partial sums and partial sums of squares of that view
  and does not touch the view; the normalisation pass, which leaves the one-pass standardisation of the view by those two
  arrays; and the view read back as [32, 64, 256, 256].  That is `kernelOut` of the argument.
-/
import proofs.«100170_g85839216378453_pilotgen1_451_2_alg».proof.Proof.NamedRun
import proofs.«100170_g85839216378453_pilotgen1_451_2_alg».proof.Proof.StatsPass
import proofs.«100170_g85839216378453_pilotgen1_451_2_alg».proof.Proof.NormalizePass
import proofs.«100170_g85839216378453_pilotgen1_451_2_alg».proof.Proof.Moments
import Idealize.ShloMosaic.Lib.Pipeline.Value
import Idealize.ShloMosaic.Lib.StableHlo.Run
import Idealize.ShloMosaic.Lib.ValueIdx

set_option maxRecDepth 16384

noncomputable section

namespace Cert.KernelIdeal.KernelValue

open Cert.KernelIdeal Cert.KernelIdeal.Gen Cert.Standardize
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The statistics pass is entered with the argument's [2048, 65536] view. -/
theorem view_at_entry (c : Dev nD) :
    (V1 m ρ c main_v0 : S2048x65536.Idx → EReal) = flat (m ((c : Thread nD τ).loc main_arg0)) := by
  have e : (V1 m ρ c main_v0 : S2048x65536.Idx → EReal)
      = shapeCast S2048x65536 (m ((c : Thread nD τ).loc main_arg0) : S32x64x256x256.Idx → EReal) shapeCasts_S32x64x256x256_S2048x65536 := by
    show StableHlo.after hostOps0 (W0 m ρ c) (Proc.devRef .tc main_v0) = _
    after_results
    rfl
  rw [e]
  funext j
  have h0 : (j 0).val < 2048 := (j 0).isLt
  have h1 : (j 1).val < 65536 := (j 1).isLt
  unfold flat
  exact shapeCast_apply _ shapeCasts_S32x64x256x256_S2048x65536 j _
    (by rewrite [Shape.rowMajor_val_four, Shape.rowMajor_val_two]
        show ((((j 0).val / 64) * 64 + (j 0).val % 64) * 256 + (j 1).val / 256) * 256 + (j 1).val % 256 = (j 0).val * 65536 + (j 1).val
        omega)

/-- The statistics pass leaves the view as it found it (it only reads it) … -/
theorem view_kept (c : Dev nD) : (V2 m ρ c main_v0 : S2048x65536.Idx → EReal) = V1 m ρ c main_v0 :=
  (W2_arr m ρ c 0).trans (((dat0 (V1 m ρ) c).arrAt_in 0 rfl _).trans (A_eq0 (V1 m ρ) c 0))

/-- … and the two partial-sum arrays at the view's row sums and row sums of squares. -/
theorem sums_at_exit (c : Dev nD) : (V2 m ρ c main_v1_0 : S32x64x1.Idx → EReal) = partSums (V1 m ρ c main_v0) :=
  (W2_arr m ρ c 1).trans (StatsPass.sums_after (V1 m ρ) c)
theorem sqSums_at_exit (c : Dev nD) : (V2 m ρ c main_v1_1 : S32x64x1.Idx → EReal) = partSqSums (V1 m ρ c main_v0) :=
  (W2_arr m ρ c 2).trans (StatsPass.sqSums_after (V1 m ρ) c)

/-- The normalisation pass leaves the one-pass standardisation of the argument's view. -/
theorem standardized_view (c : Dev nD) :
    (W3 m ρ c (Proc.devRef .tc main_v2) : S2048x65536.Idx → EReal)
      = onePass (partSums (flat (m ((c : Thread nD τ).loc main_arg0)))) (partSqSums (flat (m ((c : Thread nD τ).loc main_arg0))))
          (flat (m ((c : Thread nD τ).loc main_arg0))) := by
  refine (W3_arr m ρ c 3).trans ((NormalizePass.out_after (V2 m ρ) c).trans ?_)
  rw [sums_at_exit, sqSums_at_exit, view_kept, view_at_entry]

/-- The result buffer after the run holds `kernelOut` of the argument. -/
theorem result_eq (c : Dev nD) :
    (W4 m ρ c (Proc.devRef .tc main_v3) : S32x64x256x256.Idx → EReal) = kernelOut (m ((c : Thread nD τ).loc main_arg0)) := by
  have e : (W4 m ρ c (Proc.devRef .tc main_v3) : S32x64x256x256.Idx → EReal)
      = shapeCast S32x64x256x256 (W3 m ρ c (Proc.devRef .tc main_v2) : S2048x65536.Idx → EReal) shapeCasts_S2048x65536_S32x64x256x256 := by
    show StableHlo.after hostOps2 (W3 m ρ c) (Proc.devRef .tc main_v3) = _
    after_results
    rfl
  rw [e, standardized_view]
  unfold kernelOut
  funext i
  have h0 : (i 0).val < 32 := (i 0).isLt
  have h1 : (i 1).val < 64 := (i 1).isLt
  have h2 : (i 2).val < 256 := (i 2).isLt
  have h3 : (i 3).val < 256 := (i 3).isLt
  unfold unflat
  exact shapeCast_apply _ shapeCasts_S2048x65536_S32x64x256x256 i _
    (by rewrite [Shape.rowMajor_val_two, Shape.rowMajor_val_four]
        show ((i 0).val * 64 + (i 1).val) * 65536 + ((i 2).val * 256 + (i 3).val) = (((i 0).val * 64 + (i 1).val) * 256 + (i 2).val) * 256 + (i 3).val
        omega)

/-- Every weakly fair execution of the idealized kernel terminates, nothing faulting, with the result buffer at
    `kernelOut` of the argument and the argument as launched. -/
theorem run : θ_run defs (onTc (τ := τ) (main (F := Ideal))) ⟨m, fun _ => 0, ρ⟩ (fun r => ∀ c : Dev nD,
      r.2.mem ((c.tc : Thread nD τ).loc main_v3) = kernelOut (m ((c.tc : Thread nD τ).loc main_arg0))
      ∧ r.2.mem ((c.tc : Thread nD τ).loc main_arg0) = m ((c.tc : Thread nD τ).loc main_arg0)) :=
  (θ_run defs _ _).mono (fun _ h c => ⟨(h c).1.trans (result_eq m ρ c), (h c).2⟩) (NamedRun.run m ρ)

end Cert.KernelIdeal.KernelValue

end
-- ==== Proof.ReferenceValue.lean ====
/-
  The reference, read at an index at the extended reals.  The reference moves the channel axis last and flattens the rest,
  so that entry (k, c) of its [2097152, 64] array is entry k of channel c in the flat order k = 65536 b + 256 h + w; it
  takes the column means, the column sums of squared deviations from them, and divides the centred argument by
  sqrt (max (M / d) ε + ε), the mean and that root broadcast back over (b, h, w).  Index by index this is `refOut`.
-/
import proofs.«100170_g85839216378453_pilotgen1_451_2_alg».proof.Proof.Gen.ReferenceIdeal.Read
import proofs.«100170_g85839216378453_pilotgen1_451_2_alg».proof.Proof.Moments
import Idealize.ShloMosaic.Lib.ValueIdx

set_option maxRecDepth 16384

noncomputable section

namespace Cert.ReferenceIdeal.RefValue

open Cert.ReferenceIdeal Cert.ReferenceIdeal.Gen Cert.ReferenceIdeal.Read Cert.Standardize
open Idealize.ShloMosaic Idealize.ShloMosaic.ValueIdx

/-- Entry (k, c) of the transposed and flattened argument is entry k of channel c. -/
theorem rows_at (x : S32x64x256x256.Idx → EReal) (c : Fin 64) (k : Fin 2097152) :
    val_main_v1 (F := Ideal) x (ix2 k c) = chanEntry x c k := by
  rw [val_main_v1_apply, val_main_v0_apply]
  unfold chanEntry
  refine congrArg x (funext fun a => Fin.ext ?_)
  have hk := k.isLt
  have hc := c.isLt
  match a with
  | ⟨0, _⟩ => show (k.val * 64 + c.val) / 4194304 = k.val / 65536; omega
  | ⟨1, _⟩ => show (k.val * 64 + c.val) % 64 = c.val; omega
  | ⟨2, _⟩ => show (k.val * 64 + c.val) / 16384 % 256 = k.val / 256 % 256; omega
  | ⟨3, _⟩ => show (k.val * 64 + c.val) / 64 % 256 = k.val % 256; omega

/-- The column mean of channel c. -/
theorem mean_at (x : S32x64x256x256.Idx → EReal) (c : Fin 64) : val_main_v4 (F := Ideal) x (ix1 c) = refMean x c := by
  rw [val_main_v4_apply, val_main_v2_apply, val_main_v3_apply, val_main_cst_0_apply, val_main_cst_apply]
  unfold refMean
  show Ideal.div (Ideal.ofBits .f32 0x00000000#32 + ∑ k : Fin 2097152, val_main_v1 (F := Ideal) x (idx_main_v2 (ix1 c) k))
    (Ideal.ofBits .f32 0x4A000000#32) = _
  refine congrArg (fun s => Ideal.div (Ideal.ofBits .f32 0x00000000#32 + s) (Ideal.ofBits .f32 0x4A000000#32))
    (Finset.sum_congr rfl fun k _ => ?_)
  rw [show idx_main_v2 (ix1 c) k = ix2 k c from funext fun a => Fin.ext (by match a with | ⟨0, _⟩ => rfl | ⟨1, _⟩ => rfl)]
  exact rows_at x c k

/-- The column sum of squared deviations of channel c from its mean. -/
theorem m2_at (x : S32x64x256x256.Idx → EReal) (c : Fin 64) : val_main_v9 (F := Ideal) x (ix1 c) = refM2 x c := by
  rw [val_main_v9_apply, val_main_cst_1_apply]
  unfold refM2
  show Ideal.ofBits .f32 0x00000000#32 + ∑ k : Fin 2097152, val_main_v8 (F := Ideal) x (idx_main_v9 (ix1 c) k) = _
  refine congrArg (fun s => Ideal.ofBits .f32 0x00000000#32 + s) (Finset.sum_congr rfl fun k _ => ?_)
  rw [show idx_main_v9 (ix1 c) k = ix2 k c from funext fun a => Fin.ext (by match a with | ⟨0, _⟩ => rfl | ⟨1, _⟩ => rfl),
    val_main_v8_apply, val_main_v7_apply, val_main_v6_apply, val_main_v5_apply, rows_at,
    show idx_main_v5 (idx_main_v6 (ix2 k c)) = ix1 c from funext fun a => Fin.ext (by match a with | ⟨0, _⟩ => rfl),
    mean_at]
  rfl

/-- The reference's result, index by index, is the two-pass standardisation of the argument. -/
theorem result_eq (x : S32x64x256x256.Idx → EReal) : val_main_v22 (F := Ideal) x = refOut x := by
  funext i
  have h0 : (i 0).val < 32 := (i 0).isLt
  have h1 : (i 1).val < 64 := (i 1).isLt
  rw [val_main_v22_apply, val_main_v19_apply, val_main_v18_apply, val_main_v17_apply, val_main_v21_apply, val_main_v20_apply,
    val_main_v16_apply, val_main_v15_apply, val_main_v13_apply, val_main_v14_apply, val_main_cst_4_apply, val_main_v12_apply,
    val_main_cst_3_apply, val_main_v11_apply, val_main_v10_apply, val_main_cst_2_apply,
    show idx_main_v17 (idx_main_v18 i) = ix1 (⟨(i 1).val, (i 1).isLt⟩ : Fin 64) from funext fun a => Fin.ext (by
      match a with | ⟨0, _⟩ => show ((0 * 64 + (i 1).val) * 1 + 0) * 1 + 0 = (i 1).val; omega),
    show idx_main_v20 (idx_main_v21 i) = ix1 (⟨(i 1).val, (i 1).isLt⟩ : Fin 64) from funext fun a => Fin.ext (by
      match a with | ⟨0, _⟩ => show ((0 * 64 + (i 1).val) * 1 + 0) * 1 + 0 = (i 1).val; omega),
    mean_at, m2_at]
  rfl

end Cert.ReferenceIdeal.RefValue

end
-- ==== Proof.lean ====
/-
  Per-channel standardisation of x : [32, 64, 256, 256]: the kernel against its reference, over the extended reals.

  The kernel makes two passes over the [2048, 65536] view of x (row 64 b + c, column 256 h + w).  The first leaves, per
  batch image b and channel c, the sum and the sum of squares of row 64 b + c.  The second adds the 32 partial sums of each
  channel into T and Q, takes μ = T / n (n = 2097152, the number of entries of a channel), M = Q − T μ, and writes
  (x − μ) · rsqrt (max (M / (n − 1)) ε + ε).  The reference flattens each channel, takes μ = Σ x / n and
  M = Σ (x − μ)², and returns (x − μ) / sqrt (max (M / (n − 1)) ε + ε), with the same three constants.

  The two results are one function of a finite argument (`Cert.Standardize.kernelOut_eq_refOut`): the two sums range
  over the same entries; Σ (x − μ)² = Σ x² − T μ because n μ = T, an expansion that needs every entry finite — which is
  what the precondition gives; and a · rsqrt v = a / sqrt v for every v > 0, here v ≥ 2 ε.  The three frames are the
  programs' runs with the result dropped; the idealization rewrote nothing.
-/
import proofs.«100170_g85839216378453_pilotgen1_451_2_alg».proof.Defs
import proofs.«100170_g85839216378453_pilotgen1_451_2_alg».proof.Proof.Gen.Kernel
import proofs.«100170_g85839216378453_pilotgen1_451_2_alg».proof.Proof.Gen.Kernel.Frame
import proofs.«100170_g85839216378453_pilotgen1_451_2_alg».proof.Proof.Gen.KernelIdeal
import proofs.«100170_g85839216378453_pilotgen1_451_2_alg».proof.Proof.Gen.KernelIdeal.Frame
import proofs.«100170_g85839216378453_pilotgen1_451_2_alg».proof.Proof.Gen.ReferenceIdeal
import proofs.«100170_g85839216378453_pilotgen1_451_2_alg».proof.Proof.Gen.Pre_finite_inputs
import proofs.«100170_g85839216378453_pilotgen1_451_2_alg».proof.Proof.Gen.ReferenceIdeal.Run
import proofs.«100170_g85839216378453_pilotgen1_451_2_alg».proof.Proof.Gen.ReferenceIdeal.Read
import proofs.«100170_g85839216378453_pilotgen1_451_2_alg».proof.Proof.Moments
import proofs.«100170_g85839216378453_pilotgen1_451_2_alg».proof.Proof.FiniteInputs
import proofs.«100170_g85839216378453_pilotgen1_451_2_alg».proof.Proof.KernelValue
import proofs.«100170_g85839216378453_pilotgen1_451_2_alg».proof.Proof.ReferenceValue
import Idealize.ShloMosaic.Adequacy
import Idealize.ShloMosaic.Init

noncomputable section

namespace Cert.Proof

open Idealize.ShloMosaic Idealize.SL.Sem

/-- The kernel as printed runs and leaves its argument as launched. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree and are finite, both programs end with the two-pass standardisation of the argument: the
    reference by reading its run index by index, the kernel because its one-pass form is the same function on a finite
    argument. -/
theorem algebraic : Cert.algebraic_KernelIdeal_ReferenceIdeal := by
  intro m ρ m' ρ' hpre hagree
  refine ⟨fun c => Cert.Standardize.refOut (m ((c.tc : Thread Cert.KernelIdeal.nD Cert.KernelIdeal.τ).loc Cert.KernelIdeal.main_arg0)), ?_, ?_⟩
  · refine (θ_run Cert.KernelIdeal.defs _ _).mono (fun _ h c => ⟨(h c).1.trans ?_, (h c).2⟩)
      (Cert.KernelIdeal.KernelValue.run m ρ)
    exact Cert.Standardize.kernelOut_eq_refOut _ (fun i => Cert.FiniteInputs.real_of_pre _ (hpre c) i)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v22_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
